-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S128x64 .f32) (main_arg5 : FVec F S64 .f32) (main_arg6 : FVec F S64x16 .f32) (main_arg7 : FVec F S64x16 .f32) (main_arg8 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S10000x10000 .f32) (main_arg3 : FVec F S128x64 .f32) (main_arg4 : FVec F S128x64 .f32) (main_arg5 : FVec F S64 .f32) (main_arg6 : FVec F S64x16 .f32) (main_arg7 : FVec F S64x16 .f32) (main_arg8 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S200x10000 : Shape := ⟨2, ![200, 10000]⟩
abbrev S200x64 : Shape := ⟨2, ![200, 64]⟩
abbrev S10000x16 : Shape := ⟨2, ![10000, 16]⟩
abbrev S1x16 : Shape := ⟨2, ![1, 16]⟩
abbrev S200x16 : Shape := ⟨2, ![200, 16]⟩

abbrev nBuf : Space → Nat
  | .hbm => 17
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S64x16, .f32⟩
  | .hbm, ⟨8, _⟩ => ⟨S16, .f32⟩
  | .hbm, ⟨9, _⟩ => ⟨S10000x64, .f32⟩
  | .hbm, ⟨10, _⟩ => ⟨S10000x64, .f32⟩
  | .hbm, ⟨11, _⟩ => ⟨S1x64, .f32⟩
  | .hbm, ⟨12, _⟩ => ⟨S10000x64, .f32⟩
  | .hbm, ⟨13, _⟩ => ⟨S10000x16, .f32⟩
  | .hbm, ⟨14, _⟩ => ⟨S10000x16, .f32⟩
  | .hbm, ⟨15, _⟩ => ⟨S1x16, .f32⟩
  | .hbm, ⟨16, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S200x64, .f32⟩
  | .local _ .vmem, ⟨13, _⟩ => ⟨S200x64, .f32⟩
  | .local _ .vmem, ⟨14, _⟩ => ⟨S10000x64, .f32⟩
  | .local _ .vmem, ⟨15, _⟩ => ⟨S64x16, .f32⟩
  | .local _ .vmem, ⟨16, _⟩ => ⟨S64x16, .f32⟩
  | .local _ .vmem, ⟨17, _⟩ => ⟨S10000x16, .f32⟩
  | .local _ .vmem, ⟨18, _⟩ => ⟨S10000x16, .f32⟩
  | .local _ .vmem, ⟨19, _⟩ => ⟨S200x10000, .f32⟩
  | .local _ .vmem, ⟨20, _⟩ => ⟨S200x10000, .f32⟩
  | .local _ .vmem, ⟨21, _⟩ => ⟨S200x10000, .f32⟩
  | .local _ .vmem, ⟨22, _⟩ => ⟨S200x10000, .f32⟩
  | .local _ .vmem, ⟨23, _⟩ => ⟨S10000x16, .f32⟩
  | .local _ .vmem, ⟨24, _⟩ => ⟨S10000x16, .f32⟩
  | .local _ .vmem, ⟨25, _⟩ => ⟨S1x16, .f32⟩
  | .local _ .vmem, ⟨26, _⟩ => ⟨S200x16, .f32⟩
  | .local _ .vmem, ⟨27, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10000x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10000x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S200x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10000x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S200x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S64_S1x64 : S64.ShapeCasts S1x64
  inb_S200x10000_S200x10000_0_0 : ∀ a, (![0, 0] : Fin 2 → Nat) a + S200x10000.size a ≤ S200x10000.size a
  h_S200x10000 : 0 < S200x10000.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S200x16_S200x16_0_0 : ∀ a, (![0, 0] : Fin 2 → Nat) a + S200x16.size a ≤ S200x16.size a
  h_S200x16 : 0 < S200x16.numel
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S10000x64_S64x16_S10000x16_1_0_0_1_n_n_wf : DotDims.WF S10000x64 S64x16 S10000x16 [1] [0] [0] [1] [] []
  dot_S200x10000_S10000x16_S200x16_1_0_0_1_n_n_wf : DotDims.WF S200x10000 S10000x16 S200x16 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S10000x64.size a
  hwx1_2 : ∀ i : grid1.Coords, EltTy.bits .f32 = 32 ∨ (Rect.block (s := S10000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S10000x64.size a
  hwx1_3 : ∀ i : grid1.Coords, EltTy.bits .f32 = 32 ∨ (Rect.block (s := S10000x64) S10000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x64.size a ≤ S10000x64.size a
  hwx1_5 : ∀ i : grid1.Coords, EltTy.bits .f32 = 32 ∨ (Rect.block (s := S10000x64) S200x64.size (cc1_transform_5 i) (hinb1_5 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S200x10000.size a ≤ S10000x10000.size a
  hwx3_1 : ∀ i : grid3.Coords, EltTy.bits .f32 = 32 ∨ (Rect.block (s := S10000x10000) S200x10000.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S10000x16.size a
  hwx3_2 : ∀ i : grid3.Coords, EltTy.bits .f32 = 32 ∨ (Rect.block (s := S10000x16) S10000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S10000x16.size a
  hwx3_3 : ∀ i : grid3.Coords, EltTy.bits .f32 = 32 ∨ (Rect.block (s := S10000x16) S10000x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S200x16.size a ≤ S10000x16.size a
  hwx3_5 : ∀ i : grid3.Coords, EltTy.bits .f32 = 32 ∨ (Rect.block (s := S10000x16) S200x16.size (cc3_transform_5 i) (hinb3_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_v0_0) true false (stage0_3 0) (sem0_3 0) (Memref.isWhole_whole _) (hstage0_3 0)

abbrev win0_4 : Pipeline.Window sig grid0 :=
  Pipeline.Window.whole (Memref.whole main_v0_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S10000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S10000x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S200x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.whole (Memref.whole main_v2) false false (stage2_0 0) (sem2_0 0) (Memref.isWhole_whole _) (hstage2_0 0)

abbrev win2_1 : Pipeline.Window sig grid2 :=
  Pipeline.Window.whole (Memref.whole main_arg6) false false (stage2_1 0) (sem2_1 0) (Memref.isWhole_whole _) (hstage2_1 0)

abbrev win2_2 : Pipeline.Window sig grid2 :=
  Pipeline.Window.whole (Memref.whole main_arg7) false false (stage2_2 0) (sem2_2 0) (Memref.isWhole_whole _) (hstage2_2 0)

abbrev win2_3 : Pipeline.Window sig grid2 :=
  Pipeline.Window.whole (Memref.whole main_v3_0) true false (stage2_3 0) (sem2_3 0) (Memref.isWhole_whole _) (hstage2_3 0)

abbrev win2_4 : Pipeline.Window sig grid2 :=
  Pipeline.Window.whole (Memref.whole main_v3_1) true false (stage2_4 0) (sem2_4 0) (Memref.isWhole_whole _) (hstage2_4 0)

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S200x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3_0) S10000x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3_1) S10000x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S200x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S64x16, .f32⟩
  | .hbm, ⟨8, _⟩ => ⟨S16, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x16, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S1x16, .f32⟩
  | .hbm, ⟨26, _⟩ => ⟨S10000x16, .f32⟩
  | .hbm, ⟨27, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Boundary.lean ====
/-
  Where the kernel's program leaves the TensorCore's memory.

  The program is six segments: four launched regions with two short stretches of host operations between them. The
  contents of every buffer at each boundary between segments are a fold from the launch memory: a region replaces its
  own arrays by what its write-backs leave and keeps every other buffer, a host stretch applies its operations. The last
  boundary's contents are called W6 in the frame this builds on.

  Here: every weakly fair execution from a memory with zero counters terminates without a fault in a state whose every
  unscoped TensorCore buffer holds W6's contents, so any property of the final memory that follows from that holds of
  every execution (`ends_at_last_boundary`); in particular the result array is W6 read at the result's buffer and the
  nine argument arrays are as launched (`run_result`). What W6 holds at the result's buffer, as a function of the
  arguments, is read off the fold elsewhere.
-/
import proofs.«115403_g4011499454775_cont_8to1_b_953_5_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which needs plain
-- definitions unfolded in a metavariable's type
set_option backward.isDefEq.respectTransparency.types false in
/-- Every weakly fair execution of the program terminates, nothing faulting, with every unscoped TensorCore buffer at
    the last boundary's contents: whatever follows from that of a final memory holds at the end of every execution.
    The six segments are chained from the launch state (every unscoped buffer at its launch contents, the generator
    register, nothing owed) to the last state, which is read against the final memory buffer by buffer. -/
theorem ends_at_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the pipelines' initial one, and no core is given anything beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      -- per core: the unscoped buffers at their launch contents, the generator register, and owing nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      -- the last state holds every unscoped buffer at W6's contents: read them all against the final memory
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The result array ends at the last boundary's contents of the result's buffer, and the nine argument arrays end as
    launched: no region writes an argument back changed and no host operation writes one. -/
theorem run_result : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  ends_at_last_boundary m ρ fun s h c =>
    ⟨h c _ (mem_uc main_v5 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩

end Cert.KernelIdeal.Result

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Layer.lean ====
/-
  One graph-convolution layer on the extended reals, and what the two kinds of kernel body compute, entry by entry.

  For a node-feature matrix h (n × d), two adjacency matrices A and A' (n × n), two weight matrices W and W' (d × o)
  and a bias b (o), the layer is

      conv A A' h W W' b = A (h W) + A' (h W') + b        (the bias added to every row),

  grouped exactly so: the two inner products first, then the two outer ones, their sum, then the bias. The network is
  two such layers with max(·, 0) after the first. Every sum here is a finite sum of products of extended reals taken
  in one fixed arrangement, so nothing below needs any entry to be finite.

  A matrix is carried as a function of a row and a column; `mat` reads an array laid out by (row, column) indices that
  way and `unmat` lays such a function out again.
-/
import Idealize.ShloMosaic.Lib.ValueIdx
import Idealize.ShloMosaic.Lib.ValueLayout
import Idealize.ShloMosaic.Lib.Pipeline.Value
import Idealize.ShloMosaic.PureOps.Ideal.Laws
import proofs.«115403_g4011499454775_cont_8to1_b_953_5_alg».proof.Proof.LibPlainMatmul

noncomputable section

namespace Cert.Layer

open Idealize.ShloMosaic Idealize.ShloMosaic.ValueIdx

/-- An array indexed by (row, column) read as a function of the row and the column. -/
def mat {a b : ℕ} (A : (⟨2, ![a, b]⟩ : Shape).Idx → EReal) : Fin a → Fin b → EReal := fun r e => A (ix2 r e)

/-- An array with one axis read as a function of its position. -/
def vec {a : ℕ} (v : (⟨1, ![a]⟩ : Shape).Idx → EReal) : Fin a → EReal := fun e => v (ix1 e)

/-- A function of a row and a column laid out as an array indexed by (row, column). -/
def unmat {a b : ℕ} (f : Fin a → Fin b → EReal) : (⟨2, ![a, b]⟩ : Shape).Idx → EReal := fun i => f (i 0) (i 1)

theorem mat_unmat {a b : ℕ} (f : Fin a → Fin b → EReal) : mat (unmat f) = f := rfl

theorem unmat_apply {a b : ℕ} (f : Fin a → Fin b → EReal) (r : Fin a) (e : Fin b) : unmat f (ix2 r e) = f r e := rfl

/-- The matrix product: entry (r, e) is ∑ k, A r k · B k e. -/
def mm {M K N : ℕ} (A : Fin M → Fin K → EReal) (B : Fin K → Fin N → EReal) (r : Fin M) (e : Fin N) : EReal :=
  ∑ k : Fin K, A r k * B k e

/-- The layer before its activation: A (h W) + A' (h W') + b. -/
def conv {n d o : ℕ} (A A' : Fin n → Fin n → EReal) (h : Fin n → Fin d → EReal) (W W' : Fin d → Fin o → EReal)
    (b : Fin o → EReal) (r : Fin n) (e : Fin o) : EReal :=
  (mm A (mm h W) r e + mm A' (mm h W') r e) + b e

/-- max(·, 0), entry by entry. -/
def relu {n o : ℕ} (f : Fin n → Fin o → EReal) (r : Fin n) (e : Fin o) : EReal := max (f r e) 0

/-- The two-layer network: conv, max(·, 0), conv. -/
def net {n d h o : ℕ} (A A' : Fin n → Fin n → EReal) (x : Fin n → Fin d → EReal) (W0 W0' : Fin d → Fin h → EReal)
    (b0 : Fin h → EReal) (W1 W1' : Fin h → Fin o → EReal) (b1 : Fin o → EReal) : Fin n → Fin o → EReal :=
  conv A A' (relu (conv A A' x W0 W0' b0)) W1 W1' b1

/-- A function on (row, column) indices whose entry at i is ∑ k, A (li i k) · B (ri i k), where the index maps send
    ((r, e), k) to (r, k) and to (k, e), is the product of A and B laid out. -/
theorem eq_unmat_mm {M K N : ℕ} (f : (⟨2, ![M, N]⟩ : Shape).Idx → EReal) (A : (⟨2, ![M, K]⟩ : Shape).Idx → EReal)
    (B : (⟨2, ![K, N]⟩ : Shape).Idx → EReal) (li : (⟨2, ![M, N]⟩ : Shape).Idx → Fin K → (⟨2, ![M, K]⟩ : Shape).Idx)
    (ri : (⟨2, ![M, N]⟩ : Shape).Idx → Fin K → (⟨2, ![K, N]⟩ : Shape).Idx)
    (hl : ∀ (r : Fin M) (e : Fin N) (k : Fin K), li (ix2 r e) k = ix2 r k)
    (hr : ∀ (r : Fin M) (e : Fin N) (k : Fin K), ri (ix2 r e) k = ix2 k e)
    (h : ∀ i, f i = ∑ k : Fin K, A (li i k) * B (ri i k)) : f = unmat (mm (mat A) (mat B)) := by
  funext i
  obtain ⟨r, e, rfl⟩ : ∃ (r : Fin M) (e : Fin N), i = ix2 r e := ⟨i 0, i 1, eq_ix2 i⟩
  rw [h]
  exact Finset.sum_congr rfl fun k _ => by rw [hl, hr]; rfl

/-! ## What a body computes, at an entry -/

/-- A product of an [M, K] block and a [K, N] matrix accumulated into zero is `mm` of the two, entry by entry. -/
theorem product_entry {M K N : ℕ} (dims : DotDims ⟨2, ![M, K]⟩ ⟨2, ![K, N]⟩ ⟨2, ![M, N]⟩) (hd : dims = DotDims.plain M K N)
    (prec : Option ContractPrecision) (x : FVec Ideal ⟨2, ![M, K]⟩ .f32) (w : FVec Ideal ⟨2, ![K, N]⟩ .f32) (r : Fin M) (e : Fin N) :
    matmul dims prec x w (constant ⟨2, ![M, N]⟩ .f32 0x00000000#32) (ix2 r e) = mm (mat x) (mat w) r e :=
  matmul_plain_zero_apply dims hd prec x w r e

/-- The aggregating body on a block of P rows: the block of A times S plus the block of A' times S' plus the bias row,
    at row p of the block and column e. The supports and the bias pass through casts to their own shapes, which change
    nothing, and the one bias row is repeated down the block. -/
theorem aggregate_entry {P n o : ℕ} (dims : DotDims ⟨2, ![P, n]⟩ ⟨2, ![n, o]⟩ ⟨2, ![P, o]⟩) (hd : dims = DotDims.plain P n o)
    (prec : Option ContractPrecision) (a a' : FVec Ideal ⟨2, ![P, n]⟩ .f32) (s s' : FVec Ideal ⟨2, ![n, o]⟩ .f32)
    (b : FVec Ideal ⟨2, ![1, o]⟩ .f32) (hs : (⟨2, ![n, o]⟩ : Shape).ShapeCasts ⟨2, ![n, o]⟩)
    (hb : (⟨2, ![1, o]⟩ : Shape).ShapeCasts ⟨2, ![1, o]⟩) (hbc : (⟨2, ![1, o]⟩ : Shape).Broadcasts ⟨2, ![P, o]⟩)
    (p : Fin P) (e : Fin o) :
    addf (addf (matmul dims prec a (shapeCast ⟨2, ![n, o]⟩ s hs) (constant ⟨2, ![P, o]⟩ .f32 0x00000000#32))
          (matmul dims prec a' (shapeCast ⟨2, ![n, o]⟩ s' hs) (constant ⟨2, ![P, o]⟩ .f32 0x00000000#32)))
        (broadcastTo ⟨2, ![P, o]⟩ (shapeCast ⟨2, ![1, o]⟩ b hb) hbc) (ix2 p e)
      = (mm (mat a) (mat s) p e + mm (mat a') (mat s') p e) + b (ix2 (0 : Fin 1) e) := by
  rw [addf_apply, addf_apply, shapeCast_self, shapeCast_self, shapeCast_self, broadcastTo_1b_ab_apply,
    product_entry dims hd, product_entry dims hd]

/-- The offset (0, 0), at which every load and store of these bodies sits, is the zero offset. -/
theorem zero_offset : (![0, 0] : Fin 2 → Nat) = fun _ => 0 := funext fun a => by fin_cases a <;> rfl

/-! ## A block of rows against the whole matrix -/

/-- Rows of a block are rows of the matrix it was cut from: if row p of the block a is row q of A, entry for entry,
    then row p of a S is row q of A S. -/
theorem mm_row {P M n o : ℕ} (a : (⟨2, ![P, n]⟩ : Shape).Idx → EReal) (A : (⟨2, ![M, n]⟩ : Shape).Idx → EReal)
    (S : (⟨2, ![n, o]⟩ : Shape).Idx → EReal) (p : Fin P) (q : Fin M) (h : ∀ k : Fin n, a (ix2 p k) = A (ix2 q k)) (e : Fin o) :
    mm (mat a) (mat S) p e = mm (mat A) (mat S) q e :=
  Finset.sum_congr rfl fun k _ => by
    show a (ix2 p k) * _ = A (ix2 q k) * _
    rw [h]

/-- The aggregating body's value at row p of a block is the whole-matrix expression at the row q the block's row
    came from, at the same column: the two adjacency blocks are rows of their matrices, the supports and the bias row are
    whole. -/
theorem aggregate_row {P M n o : ℕ} (a a' : (⟨2, ![P, n]⟩ : Shape).Idx → EReal) (A A' : (⟨2, ![M, n]⟩ : Shape).Idx → EReal)
    (S S' : (⟨2, ![n, o]⟩ : Shape).Idx → EReal) (B : (⟨2, ![1, o]⟩ : Shape).Idx → EReal) (p : Fin P) (q : Fin M) (e e' : Fin o)
    (he : e = e') (ha : ∀ k : Fin n, a (ix2 p k) = A (ix2 q k)) (ha' : ∀ k : Fin n, a' (ix2 p k) = A' (ix2 q k)) :
    (mm (mat a) (mat S) p e + mm (mat a') (mat S') p e) + B (ix2 (0 : Fin 1) e)
      = (mm (mat A) (mat S) q e' + mm (mat A') (mat S') q e') + B (ix2 (0 : Fin 1) e') := by
  subst he
  rw [mm_row a A S p q ha, mm_row a' A' S' p q ha']

end Cert.Layer

end
-- ==== Proof.SupportFirst.lean ====
/-
  The first layer's supports.

  The region has a single point, whose blocks are the whole arrays: the features x (10000 × 128), the two weight matrices
  W and W' (128 × 64), and the two outputs x W and x W' (10000 × 64), each a product accumulated into zero:

      S[r, e] = ∑ k, x[r, k] · W[k, e],        S'[r, e] = ∑ k, x[r, k] · W'[k, e].

  What the one point writes back is therefore the whole of each output array.
-/
import proofs.«115403_g4011499454775_cont_8to1_b_953_5_alg».proof.Proof.Gen.KernelIdeal.Frame
import proofs.«115403_g4011499454775_cont_8to1_b_953_5_alg».proof.Proof.Layer

set_option maxRecDepth 16384

noncomputable section

namespace Cert.KernelIdeal.SupportFirst

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- Every window's one block sits at the origin. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The first stored value is the product of the features and the first weights. -/
theorem body_value (x0 : Vec Ideal S10000x128 .f32) (x1 : Vec Ideal S128x64 .f32) :
    k0_pay1 x0 x1 = unmat (mm (mat x0) (mat x1)) := by
  funext y
  obtain ⟨p, e, rfl⟩ : ∃ (p : Fin 10000) (e : Fin 64), y = ix2 p e := ⟨y 0, y 1, eq_ix2 y⟩
  unfold k0_pay1
  exact product_entry dot_S10000x128_S128x64_S10000x64_1_0_0_1_n_n rfl (some .fp32) x0 x1 p e

/-- The second stored value is the product of the features and the second weights. -/
theorem body_value' (x0 : Vec Ideal S10000x128 .f32) (x4 : Vec Ideal S128x64 .f32) :
    k0_pay2 x0 x4 = unmat (mm (mat x0) (mat x4)) := by
  funext y
  obtain ⟨p, e, rfl⟩ : ∃ (p : Fin 10000) (e : Fin 64), y = ix2 p e := ⟨y 0, y 1, eq_ix2 y⟩
  unfold k0_pay2
  exact product_entry dot_S10000x128_S128x64_S10000x64_1_0_0_1_n_n rfl (some .fp32) x0 x4 p e

/-- What the two output arrays hold afterwards, from the arrays as the region finds them. -/
def support (c : Dev nD) : S10000x64.Idx → EReal := unmat (mm (mat (V c main_arg0)) (mat (V c main_arg3)))
def support' (c : Dev nD) : S10000x64.Idx → EReal := unmat (mm (mat (V c main_arg0)) (mat (V c main_arg4)))

/-- The features' block is the whole array. -/
theorem features_whole (c : Dev nD) (t : Fin cfg0.N) : iblk0 V c 0 t = V c main_arg0 := by
  obtain ⟨e0, e1, -⟩ := index_facts t
  funext y
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- So is the first weights'. -/
theorem weights_whole (c : Dev nD) (t : Fin cfg0.N) : iblk0 V c 1 t = V c main_arg3 := by
  obtain ⟨-, -, e0, e1, -⟩ := index_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- And the second weights'. -/
theorem weights_whole' (c : Dev nD) (t : Fin cfg0.N) : iblk0 V c 2 t = V c main_arg4 := by
  obtain ⟨-, -, -, -, e0, e1, -⟩ := index_facts t
  funext y
  show V c main_arg4 (((cfg0.win 2).blk t).view.emb y) = V c main_arg4 y
  refine congrArg (V c main_arg4) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The point writes back the whole of the first support. -/
theorem written_back (c : Dev nD) (t : Fin cfg0.N) :
    (dat0 V c).flushed 3 t = ((cfg0.win 3).blk t).view.read (Elt Ideal) (support V c) := by
  show (cfg0.win 3).cut (grid0.coords t) ((dat0 V c).after 3 t) = _
  rw [after0_3]
  unfold out0_3
  rw [View.canon_unit_zero zero_offset]
  simp only [View.ld_unit_zero (S := S10000x128) zero_offset, View.ld_unit_zero (S := S128x64) zero_offset]
  rw [body_value, features_whole V c t, weights_whole V c t]
  obtain ⟨-, -, -, -, -, -, e0, e1, -⟩ := index_facts t
  funext j
  have hq0 : ((((cfg0.win 3).blk t).view.emb j) 0).val = (j 0).val := by
    show win0_3.index t (0 : Fin 2) * 10000 + 1 * (j 0).val = _; omega
  have hq1 : ((((cfg0.win 3).blk t).view.emb j) 1).val = (j 1).val := by
    show win0_3.index t (1 : Fin 2) * 64 + 1 * (j 1).val = _; omega
  show mm (mat (V c main_arg0)) (mat (V c main_arg3)) (j 0) (j 1)
      = mm (mat (V c main_arg0)) (mat (V c main_arg3)) ((((cfg0.win 3).blk t).view.emb j) 0) ((((cfg0.win 3).blk t).view.emb j) 1)
  exact congrArg₂ (mm (mat (V c main_arg0)) (mat (V c main_arg3))) (Fin.ext hq0.symm) (Fin.ext hq1.symm)

/-- And the whole of the second. -/
theorem written_back' (c : Dev nD) (t : Fin cfg0.N) :
    (dat0 V c).flushed 4 t = ((cfg0.win 4).blk t).view.read (Elt Ideal) (support' V c) := by
  show (cfg0.win 4).cut (grid0.coords t) ((dat0 V c).after 4 t) = _
  rw [after0_4]
  unfold out0_4
  rw [View.canon_unit_zero zero_offset]
  simp only [View.ld_unit_zero (S := S10000x128) zero_offset, View.ld_unit_zero (S := S128x64) zero_offset]
  rw [body_value', features_whole V c t, weights_whole' V c t]
  obtain ⟨-, -, -, -, -, -, -, -, e0, e1⟩ := index_facts t
  funext j
  have hq0 : ((((cfg0.win 4).blk t).view.emb j) 0).val = (j 0).val := by
    show win0_4.index t (0 : Fin 2) * 10000 + 1 * (j 0).val = _; omega
  have hq1 : ((((cfg0.win 4).blk t).view.emb j) 1).val = (j 1).val := by
    show win0_4.index t (1 : Fin 2) * 64 + 1 * (j 1).val = _; omega
  show mm (mat (V c main_arg0)) (mat (V c main_arg4)) (j 0) (j 1)
      = mm (mat (V c main_arg0)) (mat (V c main_arg4)) ((((cfg0.win 4).blk t).view.emb j) 0) ((((cfg0.win 4).blk t).view.emb j) 1)
  exact congrArg₂ (mm (mat (V c main_arg0)) (mat (V c main_arg4))) (Fin.ext hq0.symm) (Fin.ext hq1.symm)

/-- An index of an output array is in the point's block iff each coordinate is in the block's range on its axis. -/
theorem mem_block (t : Fin cfg0.N) (i : S10000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v0_0).slice (win0_3.rect t)).set ↔ _
  rw [View.set_slice_whole, Rect.mem_set_unit]
  exact Iff.rfl

theorem mem_block' (t : Fin cfg0.N) (i : S10000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v0_1).slice (win0_4.rect t)).set ↔ _
  rw [View.set_slice_whole, Rect.mem_set_unit]
  exact Iff.rfl

/-- The one block is the whole array. -/
theorem block_covers (i : S10000x64.Idx) :
    ∃ t : Fin cfg0.N, (cfg0.win 3).flush t = true ∧ i ∈ ((cfg0.win 3).blk t).view.set := by
  have hi0 : (i 0).val < 10000 := (i 0).isLt
  have hi1 : (i 1).val < 64 := (i 1).isLt
  let t : Fin cfg0.N := ⟨0, by rw [show cfg0.N = 1 from N_0]; omega⟩
  obtain ⟨-, -, -, -, -, -, e0, e1, -⟩ := index_facts t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

theorem block_covers' (i : S10000x64.Idx) :
    ∃ t : Fin cfg0.N, (cfg0.win 4).flush t = true ∧ i ∈ ((cfg0.win 4).blk t).view.set := by
  have hi0 : (i 0).val < 10000 := (i 0).isLt
  have hi1 : (i 1).val < 64 := (i 1).isLt
  let t : Fin cfg0.N := ⟨0, by rw [show cfg0.N = 1 from N_0]; omega⟩
  obtain ⟨-, -, -, -, -, -, -, -, e0, e1⟩ := index_facts t
  refine ⟨t, flush0_4 t, ?_⟩
  rw [mem_block']
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- The two output arrays after the region. -/
theorem array_after (c : Dev nD) : (dat0 V c).arrAt 3 cfg0.N = support V c :=
  (dat0 V c).arrAt_eq_of_cover 3 (support V c) (fun t _ => written_back V c t) block_covers

theorem array_after' (c : Dev nD) : (dat0 V c).arrAt 4 cfg0.N = support' V c :=
  (dat0 V c).arrAt_eq_of_cover 4 (support' V c) (fun t _ => written_back' V c t) block_covers'

end Cert.KernelIdeal.SupportFirst

end
-- ==== Proof.AggregateFirst.lean ====
/-
  The first layer's aggregation, region by rows.

  The region runs over 50 grid points. Point t holds rows 200 t … 200 t + 199 of the two adjacency matrices, both
  support matrices whole and the one bias row, and writes rows 200 t … 200 t + 199 of the output:

      out[200 t + p, e] = max( (∑ k, A[200 t + p, k] · S[k, e] + ∑ k, A'[200 t + p, k] · S'[k, e]) + b[e], 0 ).

  Row p of a block is row 200 t + p of its matrix, so what a point writes back is that point's block of one function of
  the arrays as the region finds them, `hidden`; the 50 blocks tile the 10000 rows, so the array after the region is
  `hidden` everywhere.
-/
import proofs.«115403_g4011499454775_cont_8to1_b_953_5_alg».proof.Proof.Gen.KernelIdeal.Frame
import proofs.«115403_g4011499454775_cont_8to1_b_953_5_alg».proof.Proof.Layer

set_option maxRecDepth 16384

noncomputable section

namespace Cert.KernelIdeal.AggregateFirst

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- Where each window's block sits at point t: the adjacency blocks and the output block at block-row t, the supports
    and the bias at the origin. Decided over the 50 points. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's value as a function of its five blocks: max(a S + a' S' + b, 0), entry by entry. -/
theorem body_value (x0 x1 : Vec Ideal S200x10000 .f32) (x2 x3 : Vec Ideal S10000x64 .f32) (x4 : Vec Ideal S1x64 .f32) :
    k1_pay1 x0 x2 x1 x3 x4
      = unmat (relu fun p e => (mm (mat x0) (mat x2) p e + mm (mat x1) (mat x3) p e) + x4 (ix2 (0 : Fin 1) e)) := by
  funext y
  obtain ⟨p, e, rfl⟩ : ∃ (p : Fin 200) (e : Fin 64), y = ix2 p e := ⟨y 0, y 1, eq_ix2 y⟩
  unfold k1_pay1
  refine (maximumf_apply _ _ _).trans ?_
  rw [broadcast_apply]
  show max _ (Ideal.ofBits .f32 0x00000000#32) = _
  rw [Ideal.ofBits_zero_f32]
  refine congrArg (fun z => max z (0 : EReal)) ?_
  exact aggregate_entry dot_S200x10000_S10000x64_S200x64_1_0_0_1_n_n rfl none x0 x1 x2 x3 x4 _ _ _ p e

/-- What the region's output array holds afterwards, from the arrays as the region finds them. -/
def hidden (c : Dev nD) : S10000x64.Idx → EReal :=
  unmat (relu fun r e => (mm (mat (V c main_arg1)) (mat (V c main_v0_0)) r e + mm (mat (V c main_arg2)) (mat (V c main_v0_1)) r e)
    + V c main_v1 (ix2 (0 : Fin 1) e))

/-- Entry y of the first adjacency's block at point t is the matrix's entry 200 t rows further down. -/
theorem adjacency_rows (c : Dev nD) (t : Fin cfg1.N) (y : S200x10000.Idx) (i : S10000x10000.Idx)
    (h0 : (i 0).val = t.val * 200 + (y 0).val) (h1 : (i 1).val = (y 1).val) : iblk1 V c 0 t y = V c main_arg1 i := by
  obtain ⟨e0, e1, -⟩ := index_facts t
  show V c main_arg1 (((cfg1.win 0).blk t).view.emb y) = V c main_arg1 i
  refine congrArg (V c main_arg1) (funext fun a => Fin.ext ?_)
  match a with
  | ⟨0, _⟩ => show win1_0.index t (0 : Fin 2) * 200 + 1 * (y 0).val = (i 0).val; omega
  | ⟨1, _⟩ => show win1_0.index t (1 : Fin 2) * 10000 + 1 * (y 1).val = (i 1).val; omega

/-- The same for the second adjacency. -/
theorem adjacency_rows' (c : Dev nD) (t : Fin cfg1.N) (y : S200x10000.Idx) (i : S10000x10000.Idx)
    (h0 : (i 0).val = t.val * 200 + (y 0).val) (h1 : (i 1).val = (y 1).val) : iblk1 V c 1 t y = V c main_arg2 i := by
  obtain ⟨-, -, e0, e1, -⟩ := index_facts t
  show V c main_arg2 (((cfg1.win 1).blk t).view.emb y) = V c main_arg2 i
  refine congrArg (V c main_arg2) (funext fun a => Fin.ext ?_)
  match a with
  | ⟨0, _⟩ => show win1_1.index t (0 : Fin 2) * 200 + 1 * (y 0).val = (i 0).val; omega
  | ⟨1, _⟩ => show win1_1.index t (1 : Fin 2) * 10000 + 1 * (y 1).val = (i 1).val; omega

/-- The first support's block is the whole matrix at every point. -/
theorem support_whole (c : Dev nD) (t : Fin cfg1.N) : iblk1 V c 2 t = V c main_v0_0 := by
  obtain ⟨-, -, -, -, e0, e1, -⟩ := index_facts t
  funext y
  show V c main_v0_0 (((cfg1.win 2).blk t).view.emb y) = V c main_v0_0 y
  refine congrArg (V c main_v0_0) (funext fun a => Fin.ext ?_)
  match a with
  | ⟨0, _⟩ => show win1_2.index t (0 : Fin 2) * 10000 + 1 * (y 0).val = (y 0).val; omega
  | ⟨1, _⟩ => show win1_2.index t (1 : Fin 2) * 64 + 1 * (y 1).val = (y 1).val; omega

/-- So is the second support's. -/
theorem support_whole' (c : Dev nD) (t : Fin cfg1.N) : iblk1 V c 3 t = V c main_v0_1 := by
  obtain ⟨-, -, -, -, -, -, e0, e1, -⟩ := index_facts t
  funext y
  show V c main_v0_1 (((cfg1.win 3).blk t).view.emb y) = V c main_v0_1 y
  refine congrArg (V c main_v0_1) (funext fun a => Fin.ext ?_)
  match a with
  | ⟨0, _⟩ => show win1_3.index t (0 : Fin 2) * 10000 + 1 * (y 0).val = (y 0).val; omega
  | ⟨1, _⟩ => show win1_3.index t (1 : Fin 2) * 64 + 1 * (y 1).val = (y 1).val; omega

/-- And the bias row's. -/
theorem bias_whole (c : Dev nD) (t : Fin cfg1.N) : iblk1 V c 4 t = V c main_v1 := by
  obtain ⟨-, -, -, -, -, -, -, -, e0, e1, -⟩ := index_facts t
  funext y
  show V c main_v1 (((cfg1.win 4).blk t).view.emb y) = V c main_v1 y
  refine congrArg (V c main_v1) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point t writes back is point t's block of `hidden`: row p of the block is row 200 t + p of the array. -/
theorem written_back (c : Dev nD) (t : Fin cfg1.N) :
    (dat1 V c).flushed 5 t = ((cfg1.win 5).blk t).view.read (Elt Ideal) (hidden V c) := by
  show (cfg1.win 5).cut (grid1.coords t) ((dat1 V c).after 5 t) = _
  rw [after1_5]
  unfold out1_5
  rw [View.canon_unit_zero zero_offset]
  simp only [View.ld_unit_zero (S := S200x10000) zero_offset, View.ld_unit_zero (S := S10000x64) zero_offset,
    View.ld_unit_zero (S := S1x64) zero_offset]
  rw [body_value, support_whole V c t, support_whole' V c t, bias_whole V c t]
  obtain ⟨-, -, -, -, -, -, -, -, -, -, e0, e1⟩ := index_facts t
  funext j
  have hj0 : (j 0).val < 200 := (j 0).isLt
  have hj1 : (j 1).val < 64 := (j 1).isLt
  have hq0 : ((((cfg1.win 5).blk t).view.emb j) 0).val = t.val * 200 + (j 0).val := by
    show win1_5.index t (0 : Fin 2) * 200 + 1 * (j 0).val = _; omega
  have hq1 : ((((cfg1.win 5).blk t).view.emb j) 1).val = (j 1).val := by
    show win1_5.index t (1 : Fin 2) * 64 + 1 * (j 1).val = _; omega
  show max ((mm (mat (iblk1 V c 0 t)) (mat (V c main_v0_0)) (j 0) (j 1) + mm (mat (iblk1 V c 1 t)) (mat (V c main_v0_1)) (j 0) (j 1))
        + V c main_v1 (ix2 (0 : Fin 1) (j 1))) 0
      = max ((mm (mat (V c main_arg1)) (mat (V c main_v0_0)) ((((cfg1.win 5).blk t).view.emb j) 0) ((((cfg1.win 5).blk t).view.emb j) 1)
          + mm (mat (V c main_arg2)) (mat (V c main_v0_1)) ((((cfg1.win 5).blk t).view.emb j) 0) ((((cfg1.win 5).blk t).view.emb j) 1))
        + V c main_v1 (ix2 (0 : Fin 1) ((((cfg1.win 5).blk t).view.emb j) 1))) 0
  refine congrArg (fun z => max z (0 : EReal)) ?_
  exact aggregate_row (iblk1 V c 0 t) (iblk1 V c 1 t) (V c main_arg1) (V c main_arg2) (V c main_v0_0) (V c main_v0_1) (V c main_v1)
    (j 0) ((((cfg1.win 5).blk t).view.emb j) 0) (j 1) ((((cfg1.win 5).blk t).view.emb j) 1) (Fin.ext hq1.symm)
    (fun k => adjacency_rows V c t _ _ hq0 rfl) (fun k => adjacency_rows' V c t _ _ hq0 rfl)

/-- An index of the output array is in point t's block iff each coordinate is in the block's range on its axis. -/
theorem mem_block (t : Fin cfg1.N) (i : S10000x64.Idx) :
    i ∈ ((cfg1.win 5).blk t).view.set ↔ ∀ a : Fin 2, win1_5.index t a * S200x64.size a ≤ (i a).val
      ∧ (i a).val < win1_5.index t a * S200x64.size a + S200x64.size a := by
  show i ∈ ((View.whole main_v2).slice (win1_5.rect t)).set ↔ _
  rw [View.set_slice_whole, Rect.mem_set_unit]
  exact Iff.rfl

/-- Every row r is in the block of point r / 200. -/
theorem blocks_cover (i : S10000x64.Idx) :
    ∃ t : Fin cfg1.N, (cfg1.win 5).flush t = true ∧ i ∈ ((cfg1.win 5).blk t).view.set := by
  have hi0 : (i 0).val < 10000 := (i 0).isLt
  have hi1 : (i 1).val < 64 := (i 1).isLt
  let t : Fin cfg1.N := ⟨(i 0).val / 200, by rw [show cfg1.N = 50 from N_1]; omega⟩
  obtain ⟨-, -, -, -, -, -, -, -, -, -, e0, e1⟩ := index_facts t
  have ht : t.val = (i 0).val / 200 := rfl
  refine ⟨t, flush1_5 t, ?_⟩
  rw [mem_block]
  intro a
  match a with
  | ⟨0, _⟩ => show win1_5.index t (0 : Fin 2) * 200 ≤ (i 0).val ∧ (i 0).val < win1_5.index t (0 : Fin 2) * 200 + 200; omega
  | ⟨1, _⟩ => show win1_5.index t (1 : Fin 2) * 64 ≤ (i 1).val ∧ (i 1).val < win1_5.index t (1 : Fin 2) * 64 + 64; omega

/-- The output array after the region. -/
theorem array_after (c : Dev nD) : (dat1 V c).arrAt 5 cfg1.N = hidden V c :=
  (dat1 V c).arrAt_eq_of_cover 5 (hidden V c) (fun t _ => written_back V c t) blocks_cover

end Cert.KernelIdeal.AggregateFirst

end
-- ==== Proof.SupportSecond.lean ====
/-
  The second layer's supports.

  As for the first layer, one point whose blocks are the whole arrays: the hidden features h (10000 × 64), the two weight
  matrices W and W' (64 × 16), and the two outputs h W and h W' (10000 × 16). The body passes h through a cast to its own
  shape, which changes nothing, before the two products:

      S[r, e] = ∑ k, h[r, k] · W[k, e],        S'[r, e] = ∑ k, h[r, k] · W'[k, e].
-/
import proofs.«115403_g4011499454775_cont_8to1_b_953_5_alg».proof.Proof.Gen.KernelIdeal.Frame
import proofs.«115403_g4011499454775_cont_8to1_b_953_5_alg».proof.Proof.Layer

set_option maxRecDepth 16384

noncomputable section

namespace Cert.KernelIdeal.SupportSecond

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- Every window's one block sits at the origin. -/
theorem index_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The first stored value is the product of the hidden features and the first weights. -/
theorem body_value (x0 : Vec Ideal S10000x64 .f32) (x2 : Vec Ideal S64x16 .f32) :
    k2_pay2 x0 x2 = unmat (mm (mat x0) (mat x2)) := by
  funext y
  obtain ⟨p, e, rfl⟩ : ∃ (p : Fin 10000) (e : Fin 16), y = ix2 p e := ⟨y 0, y 1, eq_ix2 y⟩
  unfold k2_pay2 k2_pay1
  rw [shapeCast_self]
  exact product_entry dot_S10000x64_S64x16_S10000x16_1_0_0_1_n_n rfl (some .fp32) x0 x2 p e

/-- The second stored value is the product of the hidden features and the second weights. -/
theorem body_value' (x0 : Vec Ideal S10000x64 .f32) (x5 : Vec Ideal S64x16 .f32) :
    k2_pay3 x0 x5 = unmat (mm (mat x0) (mat x5)) := by
  funext y
  obtain ⟨p, e, rfl⟩ : ∃ (p : Fin 10000) (e : Fin 16), y = ix2 p e := ⟨y 0, y 1, eq_ix2 y⟩
  unfold k2_pay3 k2_pay1
  rw [shapeCast_self]
  exact product_entry dot_S10000x64_S64x16_S10000x16_1_0_0_1_n_n rfl (some .fp32) x0 x5 p e

/-- What the two output arrays hold afterwards, from the arrays as the region finds them. -/
def support (c : Dev nD) : S10000x16.Idx → EReal := unmat (mm (mat (V c main_v2)) (mat (V c main_arg6)))
def support' (c : Dev nD) : S10000x16.Idx → EReal := unmat (mm (mat (V c main_v2)) (mat (V c main_arg7)))

/-- The hidden features' block is the whole array. -/
theorem features_whole (c : Dev nD) (t : Fin cfg2.N) : iblk2 V c 0 t = V c main_v2 := by
  obtain ⟨e0, e1, -⟩ := index_facts t
  funext y
  show V c main_v2 (((cfg2.win 0).blk t).view.emb y) = V c main_v2 y
  refine congrArg (V c main_v2) (funext fun a => Fin.ext ?_)
  match a with
  | ⟨0, _⟩ => show win2_0.index t (0 : Fin 2) * 10000 + 1 * (y 0).val = (y 0).val; omega
  | ⟨1, _⟩ => show win2_0.index t (1 : Fin 2) * 64 + 1 * (y 1).val = (y 1).val; omega

/-- So is the first weights'. -/
theorem weights_whole (c : Dev nD) (t : Fin cfg2.N) : iblk2 V c 1 t = V c main_arg6 := by
  obtain ⟨-, -, e0, e1, -⟩ := index_facts t
  funext y
  show V c main_arg6 (((cfg2.win 1).blk t).view.emb y) = V c main_arg6 y
  refine congrArg (V c main_arg6) (funext fun a => Fin.ext ?_)
  match a with
  | ⟨0, _⟩ => show win2_1.index t (0 : Fin 2) * 64 + 1 * (y 0).val = (y 0).val; omega
  | ⟨1, _⟩ => show win2_1.index t (1 : Fin 2) * 16 + 1 * (y 1).val = (y 1).val; omega

/-- And the second weights'. -/
theorem weights_whole' (c : Dev nD) (t : Fin cfg2.N) : iblk2 V c 2 t = V c main_arg7 := by
  obtain ⟨-, -, -, -, e0, e1, -⟩ := index_facts t
  funext y
  show V c main_arg7 (((cfg2.win 2).blk t).view.emb y) = V c main_arg7 y
  refine congrArg (V c main_arg7) (funext fun a => Fin.ext ?_)
  match a with
  | ⟨0, _⟩ => show win2_2.index t (0 : Fin 2) * 64 + 1 * (y 0).val = (y 0).val; omega
  | ⟨1, _⟩ => show win2_2.index t (1 : Fin 2) * 16 + 1 * (y 1).val = (y 1).val; omega

/-- The point writes back the whole of the first support. -/
theorem written_back (c : Dev nD) (t : Fin cfg2.N) :
    (dat2 V c).flushed 3 t = ((cfg2.win 3).blk t).view.read (Elt Ideal) (support V c) := by
  show (cfg2.win 3).cut (grid2.coords t) ((dat2 V c).after 3 t) = _
  rw [after2_3]
  unfold out2_3
  rw [View.canon_unit_zero zero_offset]
  simp only [View.ld_unit_zero (S := S10000x64) zero_offset, View.ld_unit_zero (S := S64x16) zero_offset]
  rw [body_value, features_whole V c t, weights_whole V c t]
  obtain ⟨-, -, -, -, -, -, e0, e1, -⟩ := index_facts t
  funext j
  have hq0 : ((((cfg2.win 3).blk t).view.emb j) 0).val = (j 0).val := by
    show win2_3.index t (0 : Fin 2) * 10000 + 1 * (j 0).val = _; omega
  have hq1 : ((((cfg2.win 3).blk t).view.emb j) 1).val = (j 1).val := by
    show win2_3.index t (1 : Fin 2) * 16 + 1 * (j 1).val = _; omega
  show mm (mat (V c main_v2)) (mat (V c main_arg6)) (j 0) (j 1)
      = mm (mat (V c main_v2)) (mat (V c main_arg6)) ((((cfg2.win 3).blk t).view.emb j) 0) ((((cfg2.win 3).blk t).view.emb j) 1)
  exact congrArg₂ (mm (mat (V c main_v2)) (mat (V c main_arg6))) (Fin.ext hq0.symm) (Fin.ext hq1.symm)

/-- And the whole of the second. -/
theorem written_back' (c : Dev nD) (t : Fin cfg2.N) :
    (dat2 V c).flushed 4 t = ((cfg2.win 4).blk t).view.read (Elt Ideal) (support' V c) := by
  show (cfg2.win 4).cut (grid2.coords t) ((dat2 V c).after 4 t) = _
  rw [after2_4]
  unfold out2_4
  rw [View.canon_unit_zero zero_offset]
  simp only [View.ld_unit_zero (S := S10000x64) zero_offset, View.ld_unit_zero (S := S64x16) zero_offset]
  rw [body_value', features_whole V c t, weights_whole' V c t]
  obtain ⟨-, -, -, -, -, -, -, -, e0, e1⟩ := index_facts t
  funext j
  have hq0 : ((((cfg2.win 4).blk t).view.emb j) 0).val = (j 0).val := by
    show win2_4.index t (0 : Fin 2) * 10000 + 1 * (j 0).val = _; omega
  have hq1 : ((((cfg2.win 4).blk t).view.emb j) 1).val = (j 1).val := by
    show win2_4.index t (1 : Fin 2) * 16 + 1 * (j 1).val = _; omega
  show mm (mat (V c main_v2)) (mat (V c main_arg7)) (j 0) (j 1)
      = mm (mat (V c main_v2)) (mat (V c main_arg7)) ((((cfg2.win 4).blk t).view.emb j) 0) ((((cfg2.win 4).blk t).view.emb j) 1)
  exact congrArg₂ (mm (mat (V c main_v2)) (mat (V c main_arg7))) (Fin.ext hq0.symm) (Fin.ext hq1.symm)

/-- An index of an output array is in the point's block iff each coordinate is in the block's range on its axis. -/
theorem mem_block (t : Fin cfg2.N) (i : S10000x16.Idx) :
    i ∈ ((cfg2.win 3).blk t).view.set ↔ ∀ a : Fin 2, win2_3.index t a * S10000x16.size a ≤ (i a).val
      ∧ (i a).val < win2_3.index t a * S10000x16.size a + S10000x16.size a := by
  show i ∈ ((View.whole main_v3_0).slice (win2_3.rect t)).set ↔ _
  rw [View.set_slice_whole, Rect.mem_set_unit]
  exact Iff.rfl

theorem mem_block' (t : Fin cfg2.N) (i : S10000x16.Idx) :
    i ∈ ((cfg2.win 4).blk t).view.set ↔ ∀ a : Fin 2, win2_4.index t a * S10000x16.size a ≤ (i a).val
      ∧ (i a).val < win2_4.index t a * S10000x16.size a + S10000x16.size a := by
  show i ∈ ((View.whole main_v3_1).slice (win2_4.rect t)).set ↔ _
  rw [View.set_slice_whole, Rect.mem_set_unit]
  exact Iff.rfl

/-- The one block is the whole array. -/
theorem block_covers (i : S10000x16.Idx) :
    ∃ t : Fin cfg2.N, (cfg2.win 3).flush t = true ∧ i ∈ ((cfg2.win 3).blk t).view.set := by
  have hi0 : (i 0).val < 10000 := (i 0).isLt
  have hi1 : (i 1).val < 16 := (i 1).isLt
  let t : Fin cfg2.N := ⟨0, by rw [show cfg2.N = 1 from N_2]; omega⟩
  obtain ⟨-, -, -, -, -, -, e0, e1, -⟩ := index_facts t
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 16 ≤ (i 1).val ∧ (i 1).val < win2_3.index t (1 : Fin 2) * 16 + 16; omega

theorem block_covers' (i : S10000x16.Idx) :
    ∃ t : Fin cfg2.N, (cfg2.win 4).flush t = true ∧ i ∈ ((cfg2.win 4).blk t).view.set := by
  have hi0 : (i 0).val < 10000 := (i 0).isLt
  have hi1 : (i 1).val < 16 := (i 1).isLt
  let t : Fin cfg2.N := ⟨0, by rw [show cfg2.N = 1 from N_2]; omega⟩
  obtain ⟨-, -, -, -, -, -, -, -, e0, e1⟩ := index_facts t
  refine ⟨t, flush2_4 t, ?_⟩
  rw [mem_block']
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 16 ≤ (i 1).val ∧ (i 1).val < win2_4.index t (1 : Fin 2) * 16 + 16; omega

/-- The two output arrays after the region. -/
theorem array_after (c : Dev nD) : (dat2 V c).arrAt 3 cfg2.N = support V c :=
  (dat2 V c).arrAt_eq_of_cover 3 (support V c) (fun t _ => written_back V c t) block_covers

theorem array_after' (c : Dev nD) : (dat2 V c).arrAt 4 cfg2.N = support' V c :=
  (dat2 V c).arrAt_eq_of_cover 4 (support' V c) (fun t _ => written_back' V c t) block_covers'

end Cert.KernelIdeal.SupportSecond

end
-- ==== Proof.AggregateSecond.lean ====
/-
  The second layer's aggregation, region by rows.

  As in the first layer, without the maximum and with 16 columns: point t of 50 holds rows 200 t … 200 t + 199 of the two
  adjacency matrices, both second-layer supports whole and the one bias row, and writes

      out[200 t + p, e] = (∑ k, A[200 t + p, k] · S[k, e] + ∑ k, A'[200 t + p, k] · S'[k, e]) + b[e].

  What a point writes back is that point's block of one function of the arrays as the region finds them, `output`, and
  the 50 blocks tile the 10000 rows.
-/
import proofs.«115403_g4011499454775_cont_8to1_b_953_5_alg».proof.Proof.Gen.KernelIdeal.Frame
import proofs.«115403_g4011499454775_cont_8to1_b_953_5_alg».proof.Proof.Layer

set_option maxRecDepth 16384

noncomputable section

namespace Cert.KernelIdeal.AggregateSecond

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- Where each window's block sits at point t: the adjacency blocks and the output block at block-row t, the supports
    and the bias at the origin. Decided over the 50 points. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The body's value as a function of its five blocks: a S + a' S' + b, entry by entry. -/
theorem body_value (x0 x1 : Vec Ideal S200x10000 .f32) (x2 x3 : Vec Ideal S10000x16 .f32) (x4 : Vec Ideal S1x16 .f32) :
    k3_pay1 x0 x2 x1 x3 x4
      = unmat (fun p e => (mm (mat x0) (mat x2) p e + mm (mat x1) (mat x3) p e) + x4 (ix2 (0 : Fin 1) e)) := by
  funext y
  obtain ⟨p, e, rfl⟩ : ∃ (p : Fin 200) (e : Fin 16), y = ix2 p e := ⟨y 0, y 1, eq_ix2 y⟩
  unfold k3_pay1
  exact aggregate_entry dot_S200x10000_S10000x16_S200x16_1_0_0_1_n_n rfl none x0 x1 x2 x3 x4 _ _ _ p e

/-- What the region's output array holds afterwards, from the arrays as the region finds them. -/
def output (c : Dev nD) : S10000x16.Idx → EReal :=
  unmat (fun r e => (mm (mat (V c main_arg1)) (mat (V c main_v3_0)) r e + mm (mat (V c main_arg2)) (mat (V c main_v3_1)) r e)
    + V c main_v4 (ix2 (0 : Fin 1) e))

/-- Entry y of the first adjacency's block at point t is the matrix's entry 200 t rows further down. -/
theorem adjacency_rows (c : Dev nD) (t : Fin cfg3.N) (y : S200x10000.Idx) (i : S10000x10000.Idx)
    (h0 : (i 0).val = t.val * 200 + (y 0).val) (h1 : (i 1).val = (y 1).val) : iblk3 V c 0 t y = V c main_arg1 i := by
  obtain ⟨e0, e1, -⟩ := index_facts t
  show V c main_arg1 (((cfg3.win 0).blk t).view.emb y) = V c main_arg1 i
  refine congrArg (V c main_arg1) (funext fun a => Fin.ext ?_)
  match a with
  | ⟨0, _⟩ => show win3_0.index t (0 : Fin 2) * 200 + 1 * (y 0).val = (i 0).val; omega
  | ⟨1, _⟩ => show win3_0.index t (1 : Fin 2) * 10000 + 1 * (y 1).val = (i 1).val; omega

/-- The same for the second adjacency. -/
theorem adjacency_rows' (c : Dev nD) (t : Fin cfg3.N) (y : S200x10000.Idx) (i : S10000x10000.Idx)
    (h0 : (i 0).val = t.val * 200 + (y 0).val) (h1 : (i 1).val = (y 1).val) : iblk3 V c 1 t y = V c main_arg2 i := by
  obtain ⟨-, -, e0, e1, -⟩ := index_facts t
  show V c main_arg2 (((cfg3.win 1).blk t).view.emb y) = V c main_arg2 i
  refine congrArg (V c main_arg2) (funext fun a => Fin.ext ?_)
  match a with
  | ⟨0, _⟩ => show win3_1.index t (0 : Fin 2) * 200 + 1 * (y 0).val = (i 0).val; omega
  | ⟨1, _⟩ => show win3_1.index t (1 : Fin 2) * 10000 + 1 * (y 1).val = (i 1).val; omega

/-- The first support's block is the whole matrix at every point. -/
theorem support_whole (c : Dev nD) (t : Fin cfg3.N) : iblk3 V c 2 t = V c main_v3_0 := by
  obtain ⟨-, -, -, -, e0, e1, -⟩ := index_facts t
  funext y
  show V c main_v3_0 (((cfg3.win 2).blk t).view.emb y) = V c main_v3_0 y
  refine congrArg (V c main_v3_0) (funext fun a => Fin.ext ?_)
  match a with
  | ⟨0, _⟩ => show win3_2.index t (0 : Fin 2) * 10000 + 1 * (y 0).val = (y 0).val; omega
  | ⟨1, _⟩ => show win3_2.index t (1 : Fin 2) * 16 + 1 * (y 1).val = (y 1).val; omega

/-- So is the second support's. -/
theorem support_whole' (c : Dev nD) (t : Fin cfg3.N) : iblk3 V c 3 t = V c main_v3_1 := by
  obtain ⟨-, -, -, -, -, -, e0, e1, -⟩ := index_facts t
  funext y
  show V c main_v3_1 (((cfg3.win 3).blk t).view.emb y) = V c main_v3_1 y
  refine congrArg (V c main_v3_1) (funext fun a => Fin.ext ?_)
  match a with
  | ⟨0, _⟩ => show win3_3.index t (0 : Fin 2) * 10000 + 1 * (y 0).val = (y 0).val; omega
  | ⟨1, _⟩ => show win3_3.index t (1 : Fin 2) * 16 + 1 * (y 1).val = (y 1).val; omega

/-- And the bias row's. -/
theorem bias_whole (c : Dev nD) (t : Fin cfg3.N) : iblk3 V c 4 t = V c main_v4 := by
  obtain ⟨-, -, -, -, -, -, -, -, e0, e1, -⟩ := index_facts t
  funext y
  show V c main_v4 (((cfg3.win 4).blk t).view.emb y) = V c main_v4 y
  refine congrArg (V c main_v4) (funext fun a => Fin.ext ?_)
  match a with
  | ⟨0, _⟩ => show win3_4.index t (0 : Fin 2) * 1 + 1 * (y 0).val = (y 0).val; omega
  | ⟨1, _⟩ => show win3_4.index t (1 : Fin 2) * 16 + 1 * (y 1).val = (y 1).val; omega

/-- What point t writes back is point t's block of `output`: row p of the block is row 200 t + p of the array. -/
theorem written_back (c : Dev nD) (t : Fin cfg3.N) :
    (dat3 V c).flushed 5 t = ((cfg3.win 5).blk t).view.read (Elt Ideal) (output V c) := by
  show (cfg3.win 5).cut (grid3.coords t) ((dat3 V c).after 5 t) = _
  rw [after3_5]
  unfold out3_5
  rw [View.canon_unit_zero zero_offset]
  simp only [View.ld_unit_zero (S := S200x10000) zero_offset, View.ld_unit_zero (S := S10000x16) zero_offset,
    View.ld_unit_zero (S := S1x16) zero_offset]
  rw [body_value, support_whole V c t, support_whole' V c t, bias_whole V c t]
  obtain ⟨-, -, -, -, -, -, -, -, -, -, e0, e1⟩ := index_facts t
  funext j
  have hj0 : (j 0).val < 200 := (j 0).isLt
  have hj1 : (j 1).val < 16 := (j 1).isLt
  have hq0 : ((((cfg3.win 5).blk t).view.emb j) 0).val = t.val * 200 + (j 0).val := by
    show win3_5.index t (0 : Fin 2) * 200 + 1 * (j 0).val = _; omega
  have hq1 : ((((cfg3.win 5).blk t).view.emb j) 1).val = (j 1).val := by
    show win3_5.index t (1 : Fin 2) * 16 + 1 * (j 1).val = _; omega
  show (mm (mat (iblk3 V c 0 t)) (mat (V c main_v3_0)) (j 0) (j 1) + mm (mat (iblk3 V c 1 t)) (mat (V c main_v3_1)) (j 0) (j 1))
        + V c main_v4 (ix2 (0 : Fin 1) (j 1))
      = (mm (mat (V c main_arg1)) (mat (V c main_v3_0)) ((((cfg3.win 5).blk t).view.emb j) 0) ((((cfg3.win 5).blk t).view.emb j) 1)
          + mm (mat (V c main_arg2)) (mat (V c main_v3_1)) ((((cfg3.win 5).blk t).view.emb j) 0) ((((cfg3.win 5).blk t).view.emb j) 1))
        + V c main_v4 (ix2 (0 : Fin 1) ((((cfg3.win 5).blk t).view.emb j) 1))
  exact aggregate_row (iblk3 V c 0 t) (iblk3 V c 1 t) (V c main_arg1) (V c main_arg2) (V c main_v3_0) (V c main_v3_1) (V c main_v4)
    (j 0) ((((cfg3.win 5).blk t).view.emb j) 0) (j 1) ((((cfg3.win 5).blk t).view.emb j) 1) (Fin.ext hq1.symm)
    (fun k => adjacency_rows V c t _ _ hq0 rfl) (fun k => adjacency_rows' V c t _ _ hq0 rfl)

/-- An index of the output array is in point t's block iff each coordinate is in the block's range on its axis. -/
theorem mem_block (t : Fin cfg3.N) (i : S10000x16.Idx) :
    i ∈ ((cfg3.win 5).blk t).view.set ↔ ∀ a : Fin 2, win3_5.index t a * S200x16.size a ≤ (i a).val
      ∧ (i a).val < win3_5.index t a * S200x16.size a + S200x16.size a := by
  show i ∈ ((View.whole main_v5).slice (win3_5.rect t)).set ↔ _
  rw [View.set_slice_whole, Rect.mem_set_unit]
  exact Iff.rfl

/-- Every row r is in the block of point r / 200. -/
theorem blocks_cover (i : S10000x16.Idx) :
    ∃ t : Fin cfg3.N, (cfg3.win 5).flush t = true ∧ i ∈ ((cfg3.win 5).blk t).view.set := by
  have hi0 : (i 0).val < 10000 := (i 0).isLt
  have hi1 : (i 1).val < 16 := (i 1).isLt
  let t : Fin cfg3.N := ⟨(i 0).val / 200, by rw [show cfg3.N = 50 from N_3]; omega⟩
  obtain ⟨-, -, -, -, -, -, -, -, -, -, e0, e1⟩ := index_facts t
  have ht : t.val = (i 0).val / 200 := rfl
  refine ⟨t, flush3_5 t, ?_⟩
  rw [mem_block]
  intro a
  match a with
  | ⟨0, _⟩ => show win3_5.index t (0 : Fin 2) * 200 ≤ (i 0).val ∧ (i 0).val < win3_5.index t (0 : Fin 2) * 200 + 200; omega
  | ⟨1, _⟩ => show win3_5.index t (1 : Fin 2) * 16 ≤ (i 1).val ∧ (i 1).val < win3_5.index t (1 : Fin 2) * 16 + 16; omega

/-- The output array after the region. -/
theorem array_after (c : Dev nD) : (dat3 V c).arrAt 5 cfg3.N = output V c :=
  (dat3 V c).arrAt_eq_of_cover 5 (output V c) (fun t _ => written_back V c t) blocks_cover

end Cert.KernelIdeal.AggregateSecond

end
-- ==== Proof.Fold.lean ====
/-
  The last boundary's contents at the result, read back to the launch memory.

  The program's boundaries, in order: the launch; after the first supports; after reshaping the first bias to a row;
  after the first aggregation; after the second supports; after reshaping the second bias; after the second
  aggregation. A region changes only its own output arrays, a reshape only the row it writes, so every array a region
  reads is either an argument as launched or an earlier region's output. Walking back from the last boundary:

      result  = A S₁ + A' S₁' + b₁        S₁ = h W₁,  S₁' = h W₁'        h = max(A S₀ + A' S₀' + b₀, 0)
      S₀ = x W₀,  S₀' = x W₀'

  with A, A', x, the four weight matrices and the two biases as launched, and a bias row read at column e being the bias
  vector's entry e. That is `Layer.net` of the nine arguments.
-/
import proofs.«115403_g4011499454775_cont_8to1_b_953_5_alg».proof.Proof.SupportFirst
import proofs.«115403_g4011499454775_cont_8to1_b_953_5_alg».proof.Proof.AggregateFirst
import proofs.«115403_g4011499454775_cont_8to1_b_953_5_alg».proof.Proof.SupportSecond
import proofs.«115403_g4011499454775_cont_8to1_b_953_5_alg».proof.Proof.AggregateSecond
import Idealize.ShloMosaic.Lib.StableHlo.Run

set_option maxRecDepth 16384

noncomputable section

namespace Cert.KernelIdeal.Fold

open Cert.KernelIdeal Cert.KernelIdeal.Gen Cert.Layer
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The two reshapes change only the row they write -/

theorem first_reshape_keeps (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem second_reshape_keeps (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The first layer -/

/-- The two supports after the first region: x W₀ and x W₀' of the launched arrays. -/
theorem supports0 (c : Dev nD) : W1 m ρ c (Proc.devRef .tc main_v0_0)
    = unmat (mm (mat (m ((c : Thread nD τ).loc main_arg0))) (mat (m ((c : Thread nD τ).loc main_arg3)))) :=
  (W1_arr m ρ c 3).trans (SupportFirst.array_after (V0 m ρ) c)

theorem supports0' (c : Dev nD) : W1 m ρ c (Proc.devRef .tc main_v0_1)
    = unmat (mm (mat (m ((c : Thread nD τ).loc main_arg0))) (mat (m ((c : Thread nD τ).loc main_arg4)))) :=
  (W1_arr m ρ c 4).trans (SupportFirst.array_after' (V0 m ρ) c)

/-- The adjacencies as the first aggregation finds them are the launched ones. -/
theorem adjacency2 (c : Dev nD) : W2 m ρ c (Proc.devRef .tc main_arg1) = m ((c : Thread nD τ).loc main_arg1) :=
  (first_reshape_keeps m ρ c main_arg1 (by decide)).trans (W1_of_ne m ρ c main_arg1 (by decide))

theorem adjacency2' (c : Dev nD) : W2 m ρ c (Proc.devRef .tc main_arg2) = m ((c : Thread nD τ).loc main_arg2) :=
  (first_reshape_keeps m ρ c main_arg2 (by decide)).trans (W1_of_ne m ρ c main_arg2 (by decide))

/-- The first bias row read at column e is the launched bias at e. -/
theorem bias_row0 (c : Dev nD) (e : Fin 64) :
    W2 m ρ c (Proc.devRef .tc main_v1) (ix2 (0 : Fin 1) e) = vec (m ((c : Thread nD τ).loc main_arg5)) e := by
  have h : W2 m ρ c (Proc.devRef .tc main_v1)
      = shapeCast S1x64 (W1 m ρ c (Proc.devRef .tc main_arg5)) Facts₀.shapeCasts_S64_S1x64 := by
    show StableHlo.after hostOps1 (W1 m ρ c) (Proc.devRef .tc main_v1) = _
    after_results
    rfl
  rw [h, W1_of_ne m ρ c main_arg5 (by decide)]
  exact shapeCast_a_1a_apply _ _ 0 e

/-- The hidden features after the first aggregation. -/
theorem hidden_value (c : Dev nD) : W3 m ρ c (Proc.devRef .tc main_v2)
    = unmat (relu (conv (mat (m ((c : Thread nD τ).loc main_arg1))) (mat (m ((c : Thread nD τ).loc main_arg2)))
        (mat (m ((c : Thread nD τ).loc main_arg0))) (mat (m ((c : Thread nD τ).loc main_arg3)))
        (mat (m ((c : Thread nD τ).loc main_arg4))) (vec (m ((c : Thread nD τ).loc main_arg5))))) := by
  refine (W3_arr m ρ c 5).trans ((AggregateFirst.array_after (V2 m ρ) c).trans ?_)
  unfold AggregateFirst.hidden
  have hA : V2 m ρ c main_arg1 = m ((c : Thread nD τ).loc main_arg1) := adjacency2 m ρ c
  have hA' : V2 m ρ c main_arg2 = m ((c : Thread nD τ).loc main_arg2) := adjacency2' m ρ c
  have hS : V2 m ρ c main_v0_0 = unmat (mm (mat (m ((c : Thread nD τ).loc main_arg0))) (mat (m ((c : Thread nD τ).loc main_arg3)))) :=
    (first_reshape_keeps m ρ c main_v0_0 (by decide)).trans (supports0 m ρ c)
  have hS' : V2 m ρ c main_v0_1 = unmat (mm (mat (m ((c : Thread nD τ).loc main_arg0))) (mat (m ((c : Thread nD τ).loc main_arg4)))) :=
    (first_reshape_keeps m ρ c main_v0_1 (by decide)).trans (supports0' m ρ c)
  rw [hA, hA', hS, hS']
  funext i
  obtain ⟨r, e, rfl⟩ : ∃ (r : Fin 10000) (e : Fin 64), i = ix2 r e := ⟨i 0, i 1, eq_ix2 i⟩
  show max (_ + V2 m ρ c main_v1 (ix2 (0 : Fin 1) e)) 0 = _
  rw [show V2 m ρ c main_v1 (ix2 (0 : Fin 1) e) = vec (m ((c : Thread nD τ).loc main_arg5)) e from bias_row0 m ρ c e]
  rfl

/-! ## The second layer -/

/-- The second layer's weights as the second supports find them are the launched ones. -/
theorem weights3 (c : Dev nD) : W3 m ρ c (Proc.devRef .tc main_arg6) = m ((c : Thread nD τ).loc main_arg6) :=
  (W3_of_ne m ρ c main_arg6 (by decide)).trans
    ((first_reshape_keeps m ρ c main_arg6 (by decide)).trans (W1_of_ne m ρ c main_arg6 (by decide)))

theorem weights3' (c : Dev nD) : W3 m ρ c (Proc.devRef .tc main_arg7) = m ((c : Thread nD τ).loc main_arg7) :=
  (W3_of_ne m ρ c main_arg7 (by decide)).trans
    ((first_reshape_keeps m ρ c main_arg7 (by decide)).trans (W1_of_ne m ρ c main_arg7 (by decide)))

/-- The two supports after the third region: h W₁ and h W₁' of the hidden features and the launched weights. -/
theorem supports1 (c : Dev nD) : W4 m ρ c (Proc.devRef .tc main_v3_0)
    = unmat (mm (mat (W3 m ρ c (Proc.devRef .tc main_v2))) (mat (m ((c : Thread nD τ).loc main_arg6)))) := by
  refine (W4_arr m ρ c 3).trans ((SupportSecond.array_after (V3 m ρ) c).trans ?_)
  unfold SupportSecond.support
  rw [show V3 m ρ c main_arg6 = m ((c : Thread nD τ).loc main_arg6) from weights3 m ρ c]

theorem supports1' (c : Dev nD) : W4 m ρ c (Proc.devRef .tc main_v3_1)
    = unmat (mm (mat (W3 m ρ c (Proc.devRef .tc main_v2))) (mat (m ((c : Thread nD τ).loc main_arg7)))) := by
  refine (W4_arr m ρ c 4).trans ((SupportSecond.array_after' (V3 m ρ) c).trans ?_)
  unfold SupportSecond.support'
  rw [show V3 m ρ c main_arg7 = m ((c : Thread nD τ).loc main_arg7) from weights3' m ρ c]

/-- The adjacencies as the second aggregation finds them are the launched ones: the first aggregation read them through
    input windows and left them, nothing else touches them. -/
theorem adjacency5 (c : Dev nD) : W5 m ρ c (Proc.devRef .tc main_arg1) = m ((c : Thread nD τ).loc main_arg1) :=
  (second_reshape_keeps m ρ c main_arg1 (by decide)).trans
    ((W4_of_ne m ρ c main_arg1 (by decide)).trans
      (((W3_arr m ρ c 0).trans (((dat1 (V2 m ρ) c).arrAt_in 0 rfl _).trans (A_eq1 (V2 m ρ) c 0))).trans (adjacency2 m ρ c)))

theorem adjacency5' (c : Dev nD) : W5 m ρ c (Proc.devRef .tc main_arg2) = m ((c : Thread nD τ).loc main_arg2) :=
  (second_reshape_keeps m ρ c main_arg2 (by decide)).trans
    ((W4_of_ne m ρ c main_arg2 (by decide)).trans
      (((W3_arr m ρ c 1).trans (((dat1 (V2 m ρ) c).arrAt_in 1 rfl _).trans (A_eq1 (V2 m ρ) c 1))).trans (adjacency2' m ρ c)))

/-- The second bias row read at column e is the launched bias at e. -/
theorem bias_row1 (c : Dev nD) (e : Fin 16) :
    W5 m ρ c (Proc.devRef .tc main_v4) (ix2 (0 : Fin 1) e) = vec (m ((c : Thread nD τ).loc main_arg8)) e := by
  have h : W5 m ρ c (Proc.devRef .tc main_v4)
      = shapeCast S1x16 (W4 m ρ c (Proc.devRef .tc main_arg8)) Facts₀.shapeCasts_S16_S1x16 := by
    show StableHlo.after hostOps3 (W4 m ρ c) (Proc.devRef .tc main_v4) = _
    after_results
    rfl
  have h8 : W4 m ρ c (Proc.devRef .tc main_arg8) = m ((c : Thread nD τ).loc main_arg8) :=
    (W4_of_ne m ρ c main_arg8 (by decide)).trans ((W3_of_ne m ρ c main_arg8 (by decide)).trans
      ((first_reshape_keeps m ρ c main_arg8 (by decide)).trans (W1_of_ne m ρ c main_arg8 (by decide))))
  rw [h, h8]
  exact shapeCast_a_1a_apply _ _ 0 e

/-- THE RESULT: the last boundary's contents at the result's buffer are the network of the nine launched arrays. -/
theorem result_value (c : Dev nD) : W6 m ρ c (Proc.devRef .tc main_v5)
    = unmat (net (mat (m ((c : Thread nD τ).loc main_arg1))) (mat (m ((c : Thread nD τ).loc main_arg2)))
        (mat (m ((c : Thread nD τ).loc main_arg0))) (mat (m ((c : Thread nD τ).loc main_arg3)))
        (mat (m ((c : Thread nD τ).loc main_arg4))) (vec (m ((c : Thread nD τ).loc main_arg5)))
        (mat (m ((c : Thread nD τ).loc main_arg6))) (mat (m ((c : Thread nD τ).loc main_arg7)))
        (vec (m ((c : Thread nD τ).loc main_arg8)))) := by
  refine (W6_arr m ρ c 5).trans ((AggregateSecond.array_after (V5 m ρ) c).trans ?_)
  unfold AggregateSecond.output
  have hA : V5 m ρ c main_arg1 = m ((c : Thread nD τ).loc main_arg1) := adjacency5 m ρ c
  have hA' : V5 m ρ c main_arg2 = m ((c : Thread nD τ).loc main_arg2) := adjacency5' m ρ c
  have hS : V5 m ρ c main_v3_0 = unmat (mm (mat (W3 m ρ c (Proc.devRef .tc main_v2))) (mat (m ((c : Thread nD τ).loc main_arg6)))) :=
    (second_reshape_keeps m ρ c main_v3_0 (by decide)).trans (supports1 m ρ c)
  have hS' : V5 m ρ c main_v3_1 = unmat (mm (mat (W3 m ρ c (Proc.devRef .tc main_v2))) (mat (m ((c : Thread nD τ).loc main_arg7)))) :=
    (second_reshape_keeps m ρ c main_v3_1 (by decide)).trans (supports1' m ρ c)
  rw [hA, hA', hS, hS', hidden_value m ρ c]
  funext i
  obtain ⟨r, e, rfl⟩ : ∃ (r : Fin 10000) (e : Fin 16), i = ix2 r e := ⟨i 0, i 1, eq_ix2 i⟩
  show _ + V5 m ρ c main_v4 (ix2 (0 : Fin 1) e) = _
  rw [show V5 m ρ c main_v4 (ix2 (0 : Fin 1) e) = vec (m ((c : Thread nD τ).loc main_arg8)) e from bias_row1 m ρ c e]
  rfl

end Cert.KernelIdeal.Fold

end
-- ==== Proof.Reference.lean ====
/-
  The reference computes the two-layer network.

  Its program is nineteen host operations: four matrix products, a sum and a bias for the first layer, max(·, 0), and the
  same again for the second layer. Read one operation at a time at an index (r, e): a product is ∑ k, left (r, k) ·
  right (k, e); the bias vector, spread first to one row and then down all rows, is its entry at e; max against the spread
  constant zero is max(·, 0). Composed, the result array is `Layer.net` of the nine arguments, laid out by (row, column).
  No step uses any law of the extended reals beyond unfolding the operations: the arrangement of sums and products is the
  specification's own.
-/
import proofs.«115403_g4011499454775_cont_8to1_b_953_5_alg».proof.Proof.Gen.ReferenceIdeal.Read
import proofs.«115403_g4011499454775_cont_8to1_b_953_5_alg».proof.Proof.Layer

noncomputable section

namespace Cert.ReferenceIdeal.Layers

open Cert.ReferenceIdeal Cert.ReferenceIdeal.Read Cert.Layer
open Idealize.ShloMosaic Idealize.ShloMosaic.ValueIdx

variable (x0 : (⟨S10000x128, .f32⟩ : BufTy).Contents (Elt Ideal)) (x1 x2 : (⟨S10000x10000, .f32⟩ : BufTy).Contents (Elt Ideal))
  (x3 x4 : (⟨S128x64, .f32⟩ : BufTy).Contents (Elt Ideal)) (x5 : (⟨S64, .f32⟩ : BufTy).Contents (Elt Ideal))
  (x6 x7 : (⟨S64x16, .f32⟩ : BufTy).Contents (Elt Ideal)) (x8 : (⟨S16, .f32⟩ : BufTy).Contents (Elt Ideal))

/-! ## The first layer -/

/-- x W₀: the first support of the first layer. -/
theorem support0 : val_main_v0 (F := Ideal) x0 x3 = unmat (mm (mat x0) (mat x3)) :=
  eq_unmat_mm _ x0 x3 lidx_main_v0 ridx_main_v0
    (fun r e k => funext fun a => Fin.ext (by match a with | ⟨0, _⟩ => rfl | ⟨1, _⟩ => rfl))
    (fun r e k => funext fun a => Fin.ext (by match a with | ⟨0, _⟩ => rfl | ⟨1, _⟩ => rfl))
    (val_main_v0_apply x0 x3)

/-- x W₀': the second support of the first layer. -/
theorem support0' : val_main_v1 (F := Ideal) x0 x4 = unmat (mm (mat x0) (mat x4)) :=
  eq_unmat_mm _ x0 x4 lidx_main_v1 ridx_main_v1
    (fun r e k => funext fun a => Fin.ext (by match a with | ⟨0, _⟩ => rfl | ⟨1, _⟩ => rfl))
    (fun r e k => funext fun a => Fin.ext (by match a with | ⟨0, _⟩ => rfl | ⟨1, _⟩ => rfl))
    (val_main_v1_apply x0 x4)

/-- A (x W₀). -/
theorem aggregate0 : val_main_v2 (F := Ideal) x0 x1 x3 = unmat (mm (mat x1) (mm (mat x0) (mat x3))) := by
  have h := eq_unmat_mm _ x1 (val_main_v0 (F := Ideal) x0 x3) lidx_main_v2 ridx_main_v2
    (fun r e k => funext fun a => Fin.ext (by match a with | ⟨0, _⟩ => rfl | ⟨1, _⟩ => rfl))
    (fun r e k => funext fun a => Fin.ext (by match a with | ⟨0, _⟩ => rfl | ⟨1, _⟩ => rfl))
    (val_main_v2_apply x0 x1 x3)
  rw [h, support0, mat_unmat]

/-- A' (x W₀'). -/
theorem aggregate0' : val_main_v3 (F := Ideal) x0 x2 x4 = unmat (mm (mat x2) (mm (mat x0) (mat x4))) := by
  have h := eq_unmat_mm _ x2 (val_main_v1 (F := Ideal) x0 x4) lidx_main_v3 ridx_main_v3
    (fun r e k => funext fun a => Fin.ext (by match a with | ⟨0, _⟩ => rfl | ⟨1, _⟩ => rfl))
    (fun r e k => funext fun a => Fin.ext (by match a with | ⟨0, _⟩ => rfl | ⟨1, _⟩ => rfl))
    (val_main_v3_apply x0 x2 x4)
  rw [h, support0', mat_unmat]

/-- The first layer before its activation: A (x W₀) + A' (x W₀') + b₀, the bias read at the column. -/
theorem layer0 : val_main_v7 (F := Ideal) x0 x1 x2 x3 x4 x5
    = unmat (conv (mat x1) (mat x2) (mat x0) (mat x3) (mat x4) (vec x5)) := by
  funext i
  obtain ⟨r, e, rfl⟩ : ∃ (r : Fin 10000) (e : Fin 64), i = ix2 r e := ⟨i 0, i 1, eq_ix2 i⟩
  rw [val_main_v7_apply, val_main_v4_apply, val_main_v6_apply, val_main_v5_apply, aggregate0, aggregate0']
  have hb : idx_main_v5 (idx_main_v6 (ix2 r e)) = ix1 e :=
    funext fun a => Fin.ext (by match a with | ⟨0, _⟩ => rfl)
  rw [hb]
  rfl

/-- The first layer: max(·, 0) of it, the zero being the spread constant. -/
theorem hidden : val_main_v8 (F := Ideal) x0 x1 x2 x3 x4 x5
    = unmat (relu (conv (mat x1) (mat x2) (mat x0) (mat x3) (mat x4) (vec x5))) := by
  funext i
  obtain ⟨r, e, rfl⟩ : ∃ (r : Fin 10000) (e : Fin 64), i = ix2 r e := ⟨i 0, i 1, eq_ix2 i⟩
  rw [val_main_v8_apply, layer0, val_main_call0_v0_apply, val_main_call0_cst_apply]
  show max (conv (mat x1) (mat x2) (mat x0) (mat x3) (mat x4) (vec x5) r e) (Ideal.ofBits .f32 0x00000000#32) = _
  rw [Ideal.ofBits_zero_f32]
  rfl

/-! ## The second layer -/

/-- h W₁, for the hidden features h. -/
theorem support1 : val_main_v9 (F := Ideal) x0 x1 x2 x3 x4 x5 x6
    = unmat (mm (relu (conv (mat x1) (mat x2) (mat x0) (mat x3) (mat x4) (vec x5))) (mat x6)) := by
  have h := eq_unmat_mm _ (val_main_v8 (F := Ideal) x0 x1 x2 x3 x4 x5) x6 lidx_main_v9 ridx_main_v9
    (fun r e k => funext fun a => Fin.ext (by match a with | ⟨0, _⟩ => rfl | ⟨1, _⟩ => rfl))
    (fun r e k => funext fun a => Fin.ext (by match a with | ⟨0, _⟩ => rfl | ⟨1, _⟩ => rfl))
    (val_main_v9_apply x0 x1 x2 x3 x4 x5 x6)
  rw [h, hidden, mat_unmat]

/-- h W₁'. -/
theorem support1' : val_main_v10 (F := Ideal) x0 x1 x2 x3 x4 x5 x7
    = unmat (mm (relu (conv (mat x1) (mat x2) (mat x0) (mat x3) (mat x4) (vec x5))) (mat x7)) := by
  have h := eq_unmat_mm _ (val_main_v8 (F := Ideal) x0 x1 x2 x3 x4 x5) x7 lidx_main_v10 ridx_main_v10
    (fun r e k => funext fun a => Fin.ext (by match a with | ⟨0, _⟩ => rfl | ⟨1, _⟩ => rfl))
    (fun r e k => funext fun a => Fin.ext (by match a with | ⟨0, _⟩ => rfl | ⟨1, _⟩ => rfl))
    (val_main_v10_apply x0 x1 x2 x3 x4 x5 x7)
  rw [h, hidden, mat_unmat]

/-- A (h W₁). -/
theorem aggregate1 : val_main_v11 (F := Ideal) x0 x1 x2 x3 x4 x5 x6
    = unmat (mm (mat x1) (mm (relu (conv (mat x1) (mat x2) (mat x0) (mat x3) (mat x4) (vec x5))) (mat x6))) := by
  have h := eq_unmat_mm _ x1 (val_main_v9 (F := Ideal) x0 x1 x2 x3 x4 x5 x6) lidx_main_v11 ridx_main_v11
    (fun r e k => funext fun a => Fin.ext (by match a with | ⟨0, _⟩ => rfl | ⟨1, _⟩ => rfl))
    (fun r e k => funext fun a => Fin.ext (by match a with | ⟨0, _⟩ => rfl | ⟨1, _⟩ => rfl))
    (val_main_v11_apply x0 x1 x2 x3 x4 x5 x6)
  rw [h, support1, mat_unmat]

/-- A' (h W₁'). -/
theorem aggregate1' : val_main_v12 (F := Ideal) x0 x1 x2 x3 x4 x5 x7
    = unmat (mm (mat x2) (mm (relu (conv (mat x1) (mat x2) (mat x0) (mat x3) (mat x4) (vec x5))) (mat x7))) := by
  have h := eq_unmat_mm _ x2 (val_main_v10 (F := Ideal) x0 x1 x2 x3 x4 x5 x7) lidx_main_v12 ridx_main_v12
    (fun r e k => funext fun a => Fin.ext (by match a with | ⟨0, _⟩ => rfl | ⟨1, _⟩ => rfl))
    (fun r e k => funext fun a => Fin.ext (by match a with | ⟨0, _⟩ => rfl | ⟨1, _⟩ => rfl))
    (val_main_v12_apply x0 x1 x2 x3 x4 x5 x7)
  rw [h, support1', mat_unmat]

/-- The reference's result: the network of its nine arguments, laid out by (row, column). -/
theorem result : val_main_v16 (F := Ideal) x0 x1 x2 x3 x4 x5 x6 x7 x8
    = unmat (net (mat x1) (mat x2) (mat x0) (mat x3) (mat x4) (vec x5) (mat x6) (mat x7) (vec x8)) := by
  funext i
  obtain ⟨r, e, rfl⟩ : ∃ (r : Fin 10000) (e : Fin 16), i = ix2 r e := ⟨i 0, i 1, eq_ix2 i⟩
  rw [val_main_v16_apply, val_main_v13_apply, val_main_v15_apply, val_main_v14_apply, aggregate1, aggregate1']
  have hb : idx_main_v14 (idx_main_v15 (ix2 r e)) = ix1 e :=
    funext fun a => Fin.ext (by match a with | ⟨0, _⟩ => rfl)
  rw [hb]
  rfl

end Cert.ReferenceIdeal.Layers

end
-- ==== Proof.lean ====
/-
  A two-layer graph convolution with two adjacency matrices, computed by four launched regions, against the same network
  written as nineteen array operations.

  With A, A' the adjacencies (10000 × 10000), x the features (10000 × 128), W₀, W₀' (128 × 64) and W₁, W₁' (64 × 16) the
  weights and b₀, b₁ the biases, both programs compute, on the extended reals,

      h   = max( A (x W₀) + A' (x W₀') + b₀ , 0 )
      out =      A (h W₁) + A' (h W₁') + b₁

  with the same grouping of every sum: the inner products first, the outer ones, their sum, then the bias. The kernel's
  program forms x W₀ and x W₀' in one region, aggregates 200 rows at a time over 50 grid points in a second, and does the
  same for the second layer; a product accumulated into zero is the plain sum of products, a block of 200 rows of A is
  200 rows of A, and the 50 blocks tile the rows, so the blocks change nothing. Because the two sides are one arrangement
  of sums and products, the equality holds at every extended real: finiteness of the inputs is not used.

  Proof/Layer.lean states the network; Proof/SupportFirst, AggregateFirst, SupportSecond, AggregateSecond give what each
  region leaves in its output arrays from the arrays it finds; Proof/Boundary.lean says where the program leaves the
  memory and Proof/Fold.lean reads that back to the launch memory; Proof/Reference.lean reads the reference's operations.
  The three frame claims are the programs' generated frames (the reference's is its run with the result dropped), and
  the idealization rewrote nothing in the kernel, so nothing is owed for it.
-/
import proofs.«115403_g4011499454775_cont_8to1_b_953_5_alg».proof.Defs
import proofs.«115403_g4011499454775_cont_8to1_b_953_5_alg».proof.Proof.Gen.Kernel
import proofs.«115403_g4011499454775_cont_8to1_b_953_5_alg».proof.Proof.Gen.Kernel.Frame
import proofs.«115403_g4011499454775_cont_8to1_b_953_5_alg».proof.Proof.Gen.KernelIdeal
import proofs.«115403_g4011499454775_cont_8to1_b_953_5_alg».proof.Proof.Gen.KernelIdeal.Frame
import proofs.«115403_g4011499454775_cont_8to1_b_953_5_alg».proof.Proof.Gen.ReferenceIdeal
import proofs.«115403_g4011499454775_cont_8to1_b_953_5_alg».proof.Proof.Gen.ReferenceIdeal.Run
import proofs.«115403_g4011499454775_cont_8to1_b_953_5_alg».proof.Proof.Gen.ReferenceIdeal.Read
import proofs.«115403_g4011499454775_cont_8to1_b_953_5_alg».proof.Proof.Gen.Pre_finite_inputs
import proofs.«115403_g4011499454775_cont_8to1_b_953_5_alg».proof.Proof.Boundary
import proofs.«115403_g4011499454775_cont_8to1_b_953_5_alg».proof.Proof.Fold
import proofs.«115403_g4011499454775_cont_8to1_b_953_5_alg».proof.Proof.Reference
import Idealize.ShloMosaic.Adequacy
import Idealize.ShloMosaic.Init

noncomputable section

namespace Cert.Proof

open Idealize.ShloMosaic Idealize.ShloMosaic.TcCoe Idealize.SL.Sem Cert.Layer

/-- The word-level kernel terminates, faults nowhere and leaves its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the nine arguments, both programs end with the network of those arguments in the
    result array: the kernel by the fold through its four regions, the reference by its nineteen operations. -/
theorem algebraic : Cert.algebraic_KernelIdeal_ReferenceIdeal := by
  intro m ρ m' ρ' _ hagree
  refine ⟨fun c => unmat (net
      (mat (m ((c.tc : Thread Cert.KernelIdeal.nD Cert.KernelIdeal.τ).loc Cert.KernelIdeal.main_arg1)))
      (mat (m ((c.tc : Thread Cert.KernelIdeal.nD Cert.KernelIdeal.τ).loc Cert.KernelIdeal.main_arg2)))
      (mat (m ((c.tc : Thread Cert.KernelIdeal.nD Cert.KernelIdeal.τ).loc Cert.KernelIdeal.main_arg0)))
      (mat (m ((c.tc : Thread Cert.KernelIdeal.nD Cert.KernelIdeal.τ).loc Cert.KernelIdeal.main_arg3)))
      (mat (m ((c.tc : Thread Cert.KernelIdeal.nD Cert.KernelIdeal.τ).loc Cert.KernelIdeal.main_arg4)))
      (vec (m ((c.tc : Thread Cert.KernelIdeal.nD Cert.KernelIdeal.τ).loc Cert.KernelIdeal.main_arg5)))
      (mat (m ((c.tc : Thread Cert.KernelIdeal.nD Cert.KernelIdeal.τ).loc Cert.KernelIdeal.main_arg6)))
      (mat (m ((c.tc : Thread Cert.KernelIdeal.nD Cert.KernelIdeal.τ).loc Cert.KernelIdeal.main_arg7)))
      (vec (m ((c.tc : Thread Cert.KernelIdeal.nD Cert.KernelIdeal.τ).loc Cert.KernelIdeal.main_arg8)))), ?_, ?_⟩
  · exact (θ_run Cert.KernelIdeal.defs _ _).mono
      (fun r h c => ⟨(h c).1.trans (Cert.KernelIdeal.Fold.result_value m ρ c), (h c).2⟩)
      (Cert.KernelIdeal.Result.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v16_eq, Cert.ReferenceIdeal.Layers.result, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
